-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x3200000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S10000x64 : Shape := ⟨2, ![10000, 64]⟩
abbrev S3300000x64 : Shape := ⟨2, ![3300000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x64, .f32⟩
  | .hbm, ⟨75, _⟩ => ⟨S3300000x1, .f32⟩
  | .hbm, ⟨76, _⟩ => ⟨S3300000x64, .f32⟩
  | .hbm, ⟨77, _⟩ => ⟨S3300000x64, .f32⟩
  | .hbm, ⟨78, _⟩ => ⟨S_, .f32⟩
  | .hbm, ⟨79, _⟩ => ⟨S100000x64, .f32⟩
  | .hbm, ⟨80, _⟩ => ⟨S3300000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x64_S64x64_S10000x64_1_0_0_1_n_n_wf : DotDims.WF S10000x64 S64x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S100000x64, .f32⟩
  | 1 => ⟨S2x3200000, .i32⟩
  | 2 => ⟨S64x64, .f32⟩
  | 3 => ⟨S64, .f32⟩
  | 4 => ⟨S64x64, .f32⟩
  | 5 => ⟨S64, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x64, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x64, .f32⟩
  | 56 => ⟨S3300000x1, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1x3200000, .i32⟩
  | 71 => ⟨S3200000, .i32⟩
  | 72 => ⟨S3300000, .i32⟩
  | 73 => ⟨S1x3200000, .i32⟩
  | 74 => ⟨S3200000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x64, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.GraphConv.lean ====
/-
  The two-layer graph convolution as ONE function of the six argument arrays, over any float instance.

  The edge list e : [2, 3200000] gives every edge a source (row 0) and a target (row 1); every node also gets a self loop,
  so both endpoint lists have 3300000 entries. A node's degree is the number of edges that end in it, its weight
  d(v) = 1/sqrt(deg v) where the degree is positive and 0 elsewhere, and an edge's weight is d(source) · d(target).
  One layer multiplies the node features by its weight matrix, sends along every edge the source's row scaled by the
  edge's weight, sums at each node what arrives there, adds the bias row and takes the maximum with zero:

      layer(x, e, W, b)[v, :] = max( Σ_{edges u→v} d(u)·d(v) · (x·W)[u, :] + b , 0 ).

  A negative endpoint is first moved up by the node count (an index counted from the end), which is what `fromEnd`
  does; the gathers and scatter-additions then treat an endpoint outside the node range by their own fixed rule,
  the same wherever they are used. The network is the layer applied twice with the same edges.
-/
import proofs.«118640_j87737591923115_1_alg».proof.Proof.Gen.ReferenceIdeal

noncomputable section

namespace Cert.GraphConv

open Idealize.ShloMosaic Cert.ReferenceIdeal Cert.ReferenceIdeal.Gen

variable {F : FTy → Type} [FloatOps F]

/-- Every edge's source node, then every node once (the self loops). -/
def sources (e : (⟨S2x3200000, .i32⟩ : BufTy).Contents (Elt F)) : (⟨S3300000, .i32⟩ : BufTy).Contents (Elt F) :=
  concatenate S3300000 0
    [⟨S3200000, (shapeCast S3200000 (extractStridedSlice S1x3200000 ![0, 0] e slices_S2x3200000_S1x3200000_0_0) shapeCasts_S1x3200000_S3200000)⟩,
     ⟨S100000, (iotaInDim S100000 32 0)⟩] concatenates_S3200000_S100000_S3300000_d0

/-- Every edge's target node, then every node once. -/
def targets (e : (⟨S2x3200000, .i32⟩ : BufTy).Contents (Elt F)) : (⟨S3300000, .i32⟩ : BufTy).Contents (Elt F) :=
  concatenate S3300000 0
    [⟨S3200000, (shapeCast S3200000 (extractStridedSlice S1x3200000 ![1, 0] e slices_S2x3200000_S1x3200000_1_0) shapeCasts_S1x3200000_S3200000)⟩,
     ⟨S100000, (iotaInDim S100000 32 0)⟩] concatenates_S3200000_S100000_S3300000_d0

/-- A list of node numbers as a column of indices, a negative one counted from the end. -/
def fromEnd (r : (⟨S3300000, .i32⟩ : BufTy).Contents (Elt F)) : (⟨S3300000x1, .i32⟩ : BufTy).Contents (Elt F) :=
  broadcastInDim S3300000x1 ![0] bcast_S3300000_S3300000x1_0
    (select (cmpi .slt r (broadcastInDim S3300000 ![] bcast_S_S3300000 (constantI S_ 32 0#32)))
      (addi r (broadcastInDim S3300000 ![] bcast_S_S3300000 (constantI S_ 32 100000#32))) r)

/-- How many edges end in each node: a one added at each target. -/
def degree (e : (⟨S2x3200000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 (targets (F := F) e))
    (broadcastInDim S3300000 ![] bcast_S_S3300000 (constant S_ .f32 0x3F800000#32))

/-- A node's weight: the reciprocal square root of its degree where that is positive, zero elsewhere. -/
def nodeWeight (e : (⟨S2x3200000, .i32⟩ : BufTy).Contents (Elt F)) : (⟨S100000, .f32⟩ : BufTy).Contents (Elt F) :=
  select (cmpf (F := F) .ogt (degree (F := F) e) (broadcastInDim S100000 ![] bcast_S_S100000 (constant S_ .f32 0x00000000#32)))
    (Host.rsqrt (degree (F := F) e))
    (broadcastInDim S100000 ![] bcast_S_S100000 (id (constant S_ .f32 0x00000000#32)))

/-- An edge's weight: its source's weight times its target's. -/
def edgeWeight (e : (⟨S2x3200000, .i32⟩ : BufTy).Contents (Elt F)) : (⟨S3300000, .f32⟩ : BufTy).Contents (Elt F) :=
  mulf (Host.gather gather_S100000_S3300000x1_S3300000_n_0_n_n_0_1_1 (nodeWeight (F := F) e) (fromEnd (F := F) (sources (F := F) e)))
    (Host.gather gather_S100000_S3300000x1_S3300000_n_0_n_n_0_1_1 (nodeWeight (F := F) e) (fromEnd (F := F) (targets (F := F) e)))

/-- At each node, the sum over the edges that end there of the source's row of `h` scaled by the edge's weight `nw`. -/
def aggregate (h : (⟨S100000x64, .f32⟩ : BufTy).Contents (Elt F)) (e : (⟨S2x3200000, .i32⟩ : BufTy).Contents (Elt F))
    (nw : (⟨S3300000, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 (targets (F := F) e))
    (mulf (Host.gather gather_S100000x64_S3300000x1_S3300000x64_1_0_n_n_0_1_164 h (fromEnd (F := F) (sources (F := F) e)))
      (broadcastInDim S3300000x64 ![0, 1] bcast_S3300000x1_S3300000x64_0_1
        (broadcastInDim S3300000x1 ![0] bcast_S3300000_S3300000x1_0 nw)))

/-- The node features times a layer's weight matrix. -/
def transform (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- The bias row added to every node's row, then the maximum with zero. -/
def biasRelu (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- One graph-convolution layer. -/
def layer (x : (⟨S100000x64, .f32⟩ : BufTy).Contents (Elt F)) (e : (⟨S2x3200000, .i32⟩ : BufTy).Contents (Elt F))
    (w : (⟨S64x64, .f32⟩ : BufTy).Contents (Elt F)) (b : (⟨S64, .f32⟩ : BufTy).Contents (Elt F)) :
    (⟨S100000x64, .f32⟩ : BufTy).Contents (Elt F) :=
  biasRelu (F := F) (aggregate (F := F) (transform (F := F) x w) e (edgeWeight (F := F) e)) b

/-- The network: two layers over the same edges. -/
def network (x : (⟨S100000x64, .f32⟩ : BufTy).Contents (Elt F)) (e : (⟨S2x3200000, .i32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) :
    (⟨S100000x64, .f32⟩ : BufTy).Contents (Elt F) :=
  layer (F := F) (layer (F := F) x e w1 b1) e w2 b2

end Cert.GraphConv

end
-- ==== Proof.KernelRun.lean ====
/-
  The idealized kernel program's run, read at EVERY buffer that outlives the launch: every weakly fair execution
  terminates without a fault, and each such buffer of each core ends holding what the last segment boundary says
  it holds. The program is nine segments in a row — three stretches of host operations, the first layer's product,
  a stretch, the first bias-and-rectify, the second layer's product, a stretch, the second bias-and-rectify — and the
  contents at each boundary follow from the previous boundary's: a host stretch rewrites the buffers its operations
  write, a kernel region rewrites its output array with what its grid points write back and leaves everything else.
  The result array is one of these buffers, so its final contents are the last boundary's.
-/
import proofs.«118640_j87737591923115_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that is not scoped to a
    region ends at the contents of the last segment boundary. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- The result array and the six argument arrays after the run: the result at the last boundary's contents, the
    arguments as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)
    (run_boundary m ρ)

end Cert.KernelIdeal.RunValue

end
-- ==== Proof.BlockProducts.lean ====
/-
  A grid point of either dense layer multiplies a block of 10000 node rows by the layer's 64×64 weight matrix.
  Over the extended reals the product's entry (p, q) is the plain sum over the 64 contracted features
  ∑ₖ x[p, k] · w[k, q]: rounding the operands to a shorter float format changes nothing there, and the product
  starts from an accumulator of zeros, so nothing is added to that sum. Both layers' bodies (the second first
  re-casts its block to the shape it already has) are this one function of the two blocks they load.
-/
import proofs.«118640_j87737591923115_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen

/-- The dimension numbers of a block's product: rows × features times features × columns. -/
abbrev rowsByWeights : DotDims S10000x64 S64x64 S10000x64 := dot_S10000x64_S64x64_S10000x64_1_0_0_1_n_n

/-- The left factor's row is the result's row. -/
theorem lhs_row (j : S10000x64.Idx) (s : rowsByWeights.contr.Idx) : (rowsByWeights.lhsIdx j s 0).val = (j 0).val := by
  unfold DotDims.lhsIdx
  rw [dif_neg (show ¬(0 : Fin S10000x64.rank) ∈ rowsByWeights.lhsBatch by decide),
    dif_pos (show (0 : Fin S10000x64.rank) ∈ rowsByWeights.lhsNonContracting by decide)]
  rfl

/-- The right factor's column is the result's column. -/
theorem rhs_col (j : S10000x64.Idx) (s : rowsByWeights.contr.Idx) : (rowsByWeights.rhsIdx j s 1).val = (j 1).val := by
  unfold DotDims.rhsIdx
  rw [dif_neg (show ¬(1 : Fin S64x64.rank) ∈ rowsByWeights.rhsBatch by decide),
    dif_pos (show (1 : Fin S64x64.rank) ∈ rowsByWeights.rhsNonContracting by decide)]
  rfl

/-- A block's product into zeros, entry by entry: the sum over the 64 features of row entry times weight entry. -/
theorem product_apply {φ₁ φ₂ : FTy} (x : FVec Ideal S10000x64 φ₁) (w : FVec Ideal S64x64 φ₂) (p : Fin 10000) (q : Fin 64) :
    matmul rowsByWeights none x w (constant (F := Ideal) S10000x64 .f32 0x00000000#32) (ix2 p q)
      = ∑ k : Fin 64, x (ix2 p k) * w (ix2 k q) := by
  refine (Ideal.matmul_constant_zero_apply rowsByWeights none x w (ix2 p q)).trans ?_
  rw [← Equiv.sum_comp (contrEquiv1 rowsByWeights 64 rfl rfl).symm]
  refine Finset.sum_congr rfl fun k _ => ?_
  have hk := contrEquiv1_symm_val rowsByWeights 64 rfl rfl k
  have el : rowsByWeights.lhsIdx (ix2 p q) ((contrEquiv1 rowsByWeights 64 rfl rfl).symm k) = ix2 p k :=
    funext fun a => Fin.ext (by
      match a with
      | ⟨0, _⟩ => exact lhs_row _ _
      | ⟨1, _⟩ => exact (rowsByWeights.lhsIdx_val_of_single rfl _ _).trans hk)
  have er : rowsByWeights.rhsIdx (ix2 p q) ((contrEquiv1 rowsByWeights 64 rfl rfl).symm k) = ix2 k q :=
    funext fun a => Fin.ext (by
      match a with
      | ⟨0, _⟩ => exact (rowsByWeights.rhsIdx_val_of_single rfl _ _).trans hk
      | ⟨1, _⟩ => exact rhs_col _ _)
  rw [el, er]

/-- The first layer's body at an entry of its block. -/
theorem layer1_product (x : Vec Ideal S10000x64 .f32) (w : Vec Ideal S64x64 .f32) (p : Fin 10000) (q : Fin 64) :
    k0_pay1 (F := Ideal) x w (ix2 p q) = ∑ k : Fin 64, x (ix2 p k) * w (ix2 k q) := by
  unfold k0_pay1
  exact product_apply (truncf .bf16 x bitsLt_bf16_f32) (truncf .bf16 w bitsLt_bf16_f32) p q

/-- The second layer's body at an entry of its block: the cast of a block to its own shape is the block. -/
theorem layer2_product (x : Vec Ideal S10000x64 .f32) (w : Vec Ideal S64x64 .f32) (p : Fin 10000) (q : Fin 64) :
    k2_pay1 (F := Ideal) x w (ix2 p q) = ∑ k : Fin 64, x (ix2 p k) * w (ix2 k q) := by
  unfold k2_pay1
  rw [shapeCast_self]
  exact product_apply (truncf .bf16 x bitsLt_bf16_f32) (truncf .bf16 w bitsLt_bf16_f32) p q

end Cert.KernelIdeal.BlockValue

end
-- ==== Proof.BlockRows.lean ====
/-
  Two facts every region of this program shares: each access of a body starts at the origin of its block, and row p of
  grid point n's block of 10000 node rows is node 10000·n + p of the 100000.
-/
import Idealize.ShloMosaic.Lib.ValueIdx

namespace Cert.KernelIdeal.RegionValue

/-- Every access of a body starts at the origin of its block. -/
theorem no_offset : (![0, 0] : Fin 2 → Nat) = fun _ => 0 := funext fun a => by fin_cases a <;> rfl

/-- The node that row p of grid point n's block holds. -/
def nodeOf (n : Nat) (hn : n < 10) (p : Fin 10000) : Fin 100000 := ⟨n * 10000 + p.val, by have := p.isLt; omega⟩

end Cert.KernelIdeal.RegionValue
-- ==== Proof.GraphConvApply.lean ====
/-
  The two dense pieces of a layer read at an entry (v, q) of the [100000, 64] node array:
  the transform is the sum over the 64 input features  Σₖ x[v, k] · w[k, q]  (over the extended reals the host's
  product is exactly that sum), and bias-and-rectify is  max(a[v, q] + b[q], 0)  (the bias row, laid out as one row
  and repeated down the nodes, reads at its column; the zero is a scalar repeated everywhere).
-/
import proofs.«118640_j87737591923115_1_alg».proof.Proof.GraphConv
import Idealize.ShloMosaic.Lib.ValueIdx
import Idealize.ShloMosaic.Lib.Pipeline.Value
import Idealize.ShloMosaic.PureOps.Ideal.Laws

noncomputable section

namespace Cert.GraphConv

open Idealize.ShloMosaic Idealize.ShloMosaic.ValueIdx Cert.ReferenceIdeal Cert.ReferenceIdeal.Gen

/-- The dimension numbers of the whole node array's product: nodes × features times features × columns. -/
abbrev nodesByWeights : DotDims S100000x64 S64x64 S100000x64 := dot_S100000x64_S64x64_S100000x64_1_0_0_1_n_n

/-- The left factor's row is the result's row. -/
theorem lhs_node (j : S100000x64.Idx) (s : nodesByWeights.contr.Idx) : (nodesByWeights.lhsIdx j s 0).val = (j 0).val := by
  unfold DotDims.lhsIdx
  rw [dif_neg (show ¬(0 : Fin S100000x64.rank) ∈ nodesByWeights.lhsBatch by decide),
    dif_pos (show (0 : Fin S100000x64.rank) ∈ nodesByWeights.lhsNonContracting by decide)]
  rfl

/-- The right factor's column is the result's column. -/
theorem rhs_col (j : S100000x64.Idx) (s : nodesByWeights.contr.Idx) : (nodesByWeights.rhsIdx j s 1).val = (j 1).val := by
  unfold DotDims.rhsIdx
  rw [dif_neg (show ¬(1 : Fin S64x64.rank) ∈ nodesByWeights.rhsBatch by decide),
    dif_pos (show (1 : Fin S64x64.rank) ∈ nodesByWeights.rhsNonContracting by decide)]
  rfl

/-- The transform at a node and a column: the sum over the input features. -/
theorem transform_apply (x : (⟨S100000x64, .f32⟩ : BufTy).Contents (Elt Ideal)) (w : (⟨S64x64, .f32⟩ : BufTy).Contents (Elt Ideal))
    (v : Fin 100000) (q : Fin 64) :
    transform (F := Ideal) x w (ix2 v q) = ∑ k : Fin 64, x (ix2 v k) * w (ix2 k q) := by
  unfold transform
  refine (Ideal.dotGeneral_apply nodesByWeights none .single x w (ix2 v q)).trans ?_
  rw [← Equiv.sum_comp (contrEquiv1 nodesByWeights 64 rfl rfl).symm]
  refine Finset.sum_congr rfl fun k _ => ?_
  have hk := contrEquiv1_symm_val nodesByWeights 64 rfl rfl k
  have el : nodesByWeights.lhsIdx (ix2 v q) ((contrEquiv1 nodesByWeights 64 rfl rfl).symm k) = ix2 v k :=
    funext fun a => Fin.ext (by
      match a with
      | ⟨0, _⟩ => exact lhs_node _ _
      | ⟨1, _⟩ => exact (nodesByWeights.lhsIdx_val_of_single rfl _ _).trans hk)
  have er : nodesByWeights.rhsIdx (ix2 v q) ((contrEquiv1 nodesByWeights 64 rfl rfl).symm k) = ix2 k q :=
    funext fun a => Fin.ext (by
      match a with
      | ⟨0, _⟩ => exact (nodesByWeights.rhsIdx_val_of_single rfl _ _).trans hk
      | ⟨1, _⟩ => exact rhs_col _ _)
  rw [el, er]

variable {F : FTy → Type} [FloatOps F]

/-- The bias laid out as one row and repeated down the nodes reads, at (v, q), the bias at q. -/
theorem biasRows_apply (b : (⟨S64, .f32⟩ : BufTy).Contents (Elt F)) (v : Fin 100000) (q : Fin 64) :
    broadcastInDim S100000x64 ![0, 1] bcast_S1x64_S100000x64_0_1 (broadcastInDim S1x64 ![1] bcast_S64_S1x64_1 b) (ix2 v q) = b (ix1 q) := by
  rw [broadcastInDim_apply _ bcast_S1x64_S100000x64_0_1 _ (ix2 v q) (ix2 (0 : Fin 1) q) (fun a => match a with
    | ⟨0, _⟩ => by show 0 = if (1 : Nat) = 1 then 0 else v.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-- Bias-and-rectify at a node and a column. -/
theorem biasRelu_apply (a : (⟨S100000x64, .f32⟩ : BufTy).Contents (Elt F)) (b : (⟨S64, .f32⟩ : BufTy).Contents (Elt F))
    (v : Fin 100000) (q : Fin 64) :
    biasRelu (F := F) a b (ix2 v q)
      = FloatOps.maximumf (FloatOps.addf (a (ix2 v q)) (b (ix1 q))) (FloatOps.ofBits .f32 0x00000000#32) := by
  unfold biasRelu
  show FloatOps.maximumf (FloatOps.addf (a (ix2 v q))
      (broadcastInDim S100000x64 ![0, 1] bcast_S1x64_S100000x64_0_1 (broadcastInDim S1x64 ![1] bcast_S64_S1x64_1 b) (ix2 v q)))
      (broadcastInDim S100000x64 ![] bcast_S_S100000x64 (constant (F := F) S_ .f32 0x00000000#32) (ix2 v q)) = _
  rw [biasRows_apply b v q,
    broadcastInDim_apply _ bcast_S_S100000x64 (constant (F := F) S_ .f32 0x00000000#32) (ix2 v q) (fun a => a.elim0) (fun a => a.elim0)]
  rfl

end Cert.GraphConv

end
-- ==== Proof.ProductRegions.lean ====
/-
  The two dense-product regions, each as ONE function of the arrays it is entered with.

  A region walks ten grid points; point t loads node rows 10000·t … 10000·t + 9999 and the whole 64×64 weight matrix,
  multiplies them, and writes the product back over the same rows of the output array. Row v of the whole product
  x·W depends only on row v of x, so each block written back is the matching block of x·W, and the ten blocks cover
  all 100000 rows: after the region the output array holds x·W, the transform of the layer.
-/
import proofs.«118640_j87737591923115_1_alg».proof.Proof.Gen.KernelIdeal.Frame
import proofs.«118640_j87737591923115_1_alg».proof.Proof.BlockProducts
import proofs.«118640_j87737591923115_1_alg».proof.Proof.BlockRows
import proofs.«118640_j87737591923115_1_alg».proof.Proof.GraphConvApply

set_option maxRecDepth 16384

noncomputable section

namespace Cert.KernelIdeal.RegionValue

open Idealize.ShloMosaic Idealize.ShloMosaic.TcCoe Idealize.ShloMosaic.ValueIdx
open Idealize.ShloMosaic.Pipeline (Dat)
open Cert.KernelIdeal Cert.KernelIdeal.Gen Cert.KernelIdeal.BlockValue

variable (V : (c : Dev nD) → (b : Ref sig .tc) → Buf (Elt Ideal) ((c : Thread nD τ).loc b))

/-! ## The first layer's product region -/

/-- Over the ten grid points: point t's block of node rows is block t of the array, the weight block is the whole
    matrix, and the output's block sits where the rows' block does. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of point t's output block is entry (10000·t + p, q) of the array. -/
theorem emb0_out (t : Fin cfg0.N) (ht : t.val < 10) (p : Fin 10000) (q : Fin 64) :
    ((cfg0.win 2).blk t).view.emb (ix2 p q) = ix2 (nodeOf t.val ht p) q := by
  obtain ⟨-, -, -, -, e4, e5⟩ := index_maps0 t
  funext a; apply Fin.ext
  match a with
  | ⟨0, _⟩ => show win0_2.index t (0 : Fin 2) * 10000 + 1 * p.val = t.val * 10000 + p.val; rw [e4]; omega
  | ⟨1, _⟩ => show win0_2.index t (1 : Fin 2) * 64 + 1 * q.val = q.val; rw [e5]; omega

/-- Entry (p, k) of point t's block of node rows is entry (10000·t + p, k) of the array. -/
theorem emb0_rows (t : Fin cfg0.N) (ht : t.val < 10) (p : Fin 10000) (k : Fin 64) :
    ((cfg0.win 0).blk t).view.emb (ix2 p k) = ix2 (nodeOf t.val ht p) k := by
  obtain ⟨e0, e1, -, -, -, -⟩ := index_maps0 t
  funext a; apply Fin.ext
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The weight block at every point is the weight matrix itself. -/
theorem emb0_weights (t : Fin cfg0.N) (k q : Fin 64) :
    ((cfg0.win 1).blk t).view.emb (ix2 k q) = ix2 k q := by
  obtain ⟨-, -, e2, e3, -, -⟩ := index_maps0 t
  funext a; apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- What point t writes back is block t of the whole product of the two arrays as the region finds them: an entry
    of the block's product sums over the same 64 features the whole product's entry does. -/
theorem flushed0 (c : Dev nD) (t : Fin cfg0.N) :
    (dat0 V c).flushed 2 t = ((cfg0.win 2).blk t).view.read (Elt Ideal)
      (GraphConv.transform (F := Ideal) (V c main_arg0) (V c main_arg2)) := by
  have ht : t.val < 10 := lt_of_lt_of_eq t.isLt N_0
  show (cfg0.win 2).cut (grid0.coords t) ((dat0 V c).after 2 t) = _
  rw [after0_2]
  unfold out0_2
  rw [View.canon_unit_zero no_offset]
  simp only [View.ld_unit_zero (S := S10000x64) no_offset, View.ld_unit_zero (S := S64x64) no_offset]
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
      = GraphConv.transform (F := Ideal) (V c main_arg0) (V c main_arg2) (((cfg0.win 2).blk t).view.emb (ix2 p q))
  rw [emb0_out t ht p q]
  refine (layer1_product (iblk0 V c 0 t) (iblk0 V c 1 t) p q).trans ?_
  refine ((GraphConv.transform_apply (V c main_arg0) (V c main_arg2) (nodeOf t.val ht p) q).trans ?_).symm
  refine Finset.sum_congr rfl fun k _ => ?_
  have hr : iblk0 V c 0 t (ix2 p k) = V c main_arg0 (ix2 (nodeOf t.val ht p) k) := by
    show V c main_arg0 (((cfg0.win 0).blk t).view.emb (ix2 p k)) = _
    rw [emb0_rows t ht p k]
  have hw : iblk0 V c 1 t (ix2 k q) = V c main_arg2 (ix2 k q) := by
    show V c main_arg2 (((cfg0.win 1).blk t).view.emb (ix2 k q)) = _
    rw [emb0_weights t k q]
  rw [hr, hw]

/-- A node row lies in point t's output block exactly when each coordinate lies in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Node v's row is written back by point v / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hq : (i 0).val / 10000 < 10 := by omega
  obtain ⟨-, -, -, -, e4, e5⟩ := index_maps0 ⟨(i 0).val / 10000, lt_of_lt_of_eq hq N_0.symm⟩
  refine ⟨⟨(i 0).val / 10000, lt_of_lt_of_eq hq N_0.symm⟩, flush0_2 _, ?_⟩
  rw [mem_blk0]
  intro a
  match a with
  | ⟨0, _⟩ =>
    show win0_2.index ⟨(i 0).val / 10000, _⟩ (0 : Fin 2) * 10000 ≤ (i 0).val ∧ (i 0).val < win0_2.index ⟨(i 0).val / 10000, _⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, _⟩ (1 : Fin 2) * 64 ≤ (i 1).val ∧ (i 1).val < win0_2.index ⟨(i 0).val / 10000, _⟩ (1 : Fin 2) * 64 + 64
    rw [e5]
    omega

/-- The region's output array after its ten write-backs: the whole product of the two arrays it was entered with. -/
theorem product0 (c : Dev nD) :
    (dat0 V c).arrAt 2 cfg0.N = GraphConv.transform (F := Ideal) (V c main_arg0) (V c main_arg2) :=
  (dat0 V c).arrAt_eq_of_cover 2 _ (fun t _ => flushed0 V c t) cover0

/-! ## The second layer's product region -/

/-- Over the ten grid points: point t's block of node rows is block t of the array, the weight block is the whole
    matrix, and the output's block sits where the rows' block does. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of point t's output block is entry (10000·t + p, q) of the array. -/
theorem emb2_out (t : Fin cfg2.N) (ht : t.val < 10) (p : Fin 10000) (q : Fin 64) :
    ((cfg2.win 2).blk t).view.emb (ix2 p q) = ix2 (nodeOf t.val ht p) q := by
  obtain ⟨-, -, -, -, e4, e5⟩ := index_maps2 t
  funext a; apply Fin.ext
  match a with
  | ⟨0, _⟩ => show win2_2.index t (0 : Fin 2) * 10000 + 1 * p.val = t.val * 10000 + p.val; rw [e4]; omega
  | ⟨1, _⟩ => show win2_2.index t (1 : Fin 2) * 64 + 1 * q.val = q.val; rw [e5]; omega

/-- Entry (p, k) of point t's block of node rows is entry (10000·t + p, k) of the array. -/
theorem emb2_rows (t : Fin cfg2.N) (ht : t.val < 10) (p : Fin 10000) (k : Fin 64) :
    ((cfg2.win 0).blk t).view.emb (ix2 p k) = ix2 (nodeOf t.val ht p) k := by
  obtain ⟨e0, e1, -, -, -, -⟩ := index_maps2 t
  funext a; apply Fin.ext
  match a with
  | ⟨0, _⟩ => show win2_0.index t (0 : Fin 2) * 10000 + 1 * p.val = t.val * 10000 + p.val; rw [e0]; omega
  | ⟨1, _⟩ => show win2_0.index t (1 : Fin 2) * 64 + 1 * k.val = k.val; rw [e1]; omega

/-- The weight block at every point is the weight matrix itself. -/
theorem emb2_weights (t : Fin cfg2.N) (k q : Fin 64) :
    ((cfg2.win 1).blk t).view.emb (ix2 k q) = ix2 k q := by
  obtain ⟨-, -, e2, e3, -, -⟩ := index_maps2 t
  funext a; apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- What point t writes back is block t of the whole product of the two arrays as the region finds them: an entry
    of the block's product sums over the same 64 features the whole product's entry does. -/
theorem flushed2 (c : Dev nD) (t : Fin cfg2.N) :
    (dat2 V c).flushed 2 t = ((cfg2.win 2).blk t).view.read (Elt Ideal)
      (GraphConv.transform (F := Ideal) (V c main_v45) (V c main_arg4)) := by
  have ht : t.val < 10 := lt_of_lt_of_eq t.isLt N_2
  show (cfg2.win 2).cut (grid2.coords t) ((dat2 V c).after 2 t) = _
  rw [after2_2]
  unfold out2_2
  rw [View.canon_unit_zero no_offset]
  simp only [View.ld_unit_zero (S := S10000x64) no_offset, View.ld_unit_zero (S := S64x64) no_offset]
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
      = GraphConv.transform (F := Ideal) (V c main_v45) (V c main_arg4) (((cfg2.win 2).blk t).view.emb (ix2 p q))
  rw [emb2_out t ht p q]
  refine (layer2_product (iblk2 V c 0 t) (iblk2 V c 1 t) p q).trans ?_
  refine ((GraphConv.transform_apply (V c main_v45) (V c main_arg4) (nodeOf t.val ht p) q).trans ?_).symm
  refine Finset.sum_congr rfl fun k _ => ?_
  have hr : iblk2 V c 0 t (ix2 p k) = V c main_v45 (ix2 (nodeOf t.val ht p) k) := by
    show V c main_v45 (((cfg2.win 0).blk t).view.emb (ix2 p k)) = _
    rw [emb2_rows t ht p k]
  have hw : iblk2 V c 1 t (ix2 k q) = V c main_arg4 (ix2 k q) := by
    show V c main_arg4 (((cfg2.win 1).blk t).view.emb (ix2 k q)) = _
    rw [emb2_weights t k q]
  rw [hr, hw]

/-- A node row lies in point t's output block exactly when each coordinate lies in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Node v's row is written back by point v / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hq : (i 0).val / 10000 < 10 := by omega
  obtain ⟨-, -, -, -, e4, e5⟩ := index_maps2 ⟨(i 0).val / 10000, lt_of_lt_of_eq hq N_2.symm⟩
  refine ⟨⟨(i 0).val / 10000, lt_of_lt_of_eq hq N_2.symm⟩, flush2_2 _, ?_⟩
  rw [mem_blk2]
  intro a
  match a with
  | ⟨0, _⟩ =>
    show win2_2.index ⟨(i 0).val / 10000, _⟩ (0 : Fin 2) * 10000 ≤ (i 0).val ∧ (i 0).val < win2_2.index ⟨(i 0).val / 10000, _⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, _⟩ (1 : Fin 2) * 64 ≤ (i 1).val ∧ (i 1).val < win2_2.index ⟨(i 0).val / 10000, _⟩ (1 : Fin 2) * 64 + 64
    rw [e5]
    omega

/-- The region's output array after its ten write-backs: the whole product of the two arrays it was entered with. -/
theorem product2 (c : Dev nD) :
    (dat2 V c).arrAt 2 cfg2.N = GraphConv.transform (F := Ideal) (V c main_v45) (V c main_arg4) :=
  (dat2 V c).arrAt_eq_of_cover 2 _ (fun t _ => flushed2 V c t) cover2

end Cert.KernelIdeal.RegionValue

end
-- ==== Proof.BlockBiasRelu.lean ====
/-
  A grid point of either bias-and-rectify step adds the layer's bias row to every one of the block's 10000 node rows and
  takes the maximum with zero. Entry (p, q) of what it stores is max(a[p, q] + b[0, q], 0): the casts of a block and of
  the bias row to the shapes they already have are the identity, the [1, 64] row broadcast over the rows reads its one
  row, and the scalar zero broadcast reads zero everywhere. Nothing here depends on what the floats are, so it is stated
  for any float instance.
-/
import proofs.«118640_j87737591923115_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.BlockValue

open Idealize.ShloMosaic Idealize.ShloMosaic.ValueIdx Cert.KernelIdeal Cert.KernelIdeal.Gen

variable {F : FTy → Type} [FloatOps F]

/-- The first layer's bias-and-rectify body at an entry of its block. -/
theorem layer1_bias_relu (b : Vec F S1x64 .f32) (a : Vec F S10000x64 .f32) (p : Fin 10000) (q : Fin 64) :
    k1_pay1 (F := F) b a (ix2 p q)
      = FloatOps.maximumf (FloatOps.addf (a (ix2 p q)) (b (ix2 (0 : Fin 1) q))) (FloatOps.ofBits .f32 0x00000000#32) := by
  unfold k1_pay1
  rw [shapeCast_self, shapeCast_self, shapeCast_self]
  show FloatOps.maximumf (FloatOps.addf (a (ix2 p q)) (broadcastTo S10000x64 b broadcasts_S1x64_S10000x64 (ix2 p q))) _ = _
  rw [broadcastTo_1b_ab_apply b broadcasts_S1x64_S10000x64 p q]
  rfl

/-- The second layer's bias-and-rectify body at an entry of its block. -/
theorem layer2_bias_relu (b : Vec F S1x64 .f32) (a : Vec F S10000x64 .f32) (p : Fin 10000) (q : Fin 64) :
    k3_pay1 (F := F) b a (ix2 p q)
      = FloatOps.maximumf (FloatOps.addf (a (ix2 p q)) (b (ix2 (0 : Fin 1) q))) (FloatOps.ofBits .f32 0x00000000#32) := by
  unfold k3_pay1
  rw [shapeCast_self, shapeCast_self, shapeCast_self]
  show FloatOps.maximumf (FloatOps.addf (a (ix2 p q)) (broadcastTo S10000x64 b broadcasts_S1x64_S10000x64 (ix2 p q))) _ = _
  rw [broadcastTo_1b_ab_apply b broadcasts_S1x64_S10000x64 p q]
  rfl

end Cert.KernelIdeal.BlockValue

end
-- ==== Proof.BiasReluRegions.lean ====
/-
  The two bias-and-rectify regions, each as ONE function of the arrays it is entered with.

  A region walks ten grid points; point t loads node rows 10000·t … 10000·t + 9999 of the aggregated features and the
  one bias row, adds the bias to every row, takes the maximum with zero, and writes the block back over the same rows
  of the output array. The step acts entry by entry, so each block written back is the matching block of the step
  applied to the whole array, and the ten blocks cover all 100000 rows.
-/
import proofs.«118640_j87737591923115_1_alg».proof.Proof.Gen.KernelIdeal.Frame
import proofs.«118640_j87737591923115_1_alg».proof.Proof.BlockBiasRelu
import proofs.«118640_j87737591923115_1_alg».proof.Proof.BlockRows
import proofs.«118640_j87737591923115_1_alg».proof.Proof.GraphConvApply

set_option maxRecDepth 16384

noncomputable section

namespace Cert.KernelIdeal.RegionValue

open Idealize.ShloMosaic Idealize.ShloMosaic.TcCoe Idealize.ShloMosaic.ValueIdx
open Idealize.ShloMosaic.Pipeline (Dat)
open Cert.KernelIdeal Cert.KernelIdeal.Gen Cert.KernelIdeal.BlockValue

variable {F : FTy → Type} [FloatOps F]

variable (V : (c : Dev nD) → (b : Ref sig .tc) → Buf (Elt F) ((c : Thread nD τ).loc b))

/-! ## The first layer's bias-and-rectify region -/

/-- Over the ten grid points: point t's block of node rows is block t of the array, the bias block is the whole
    bias row, and the output's block sits where the rows' block does. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of point t's output block is entry (10000·t + p, q) of the array. -/
theorem emb1_out (t : Fin cfg1.N) (ht : t.val < 10) (p : Fin 10000) (q : Fin 64) :
    ((cfg1.win 2).blk t).view.emb (ix2 p q) = ix2 (nodeOf t.val ht p) q := by
  obtain ⟨-, -, -, -, e4, e5⟩ := index_maps1 t
  funext a; apply Fin.ext
  match a with
  | ⟨0, _⟩ => show win1_2.index t (0 : Fin 2) * 10000 + 1 * p.val = t.val * 10000 + p.val; rw [e4]; omega
  | ⟨1, _⟩ => show win1_2.index t (1 : Fin 2) * 64 + 1 * q.val = q.val; rw [e5]; omega

/-- Entry (p, q) of point t's block of node rows is entry (10000·t + p, q) of the array. -/
theorem emb1_rows (t : Fin cfg1.N) (ht : t.val < 10) (p : Fin 10000) (q : Fin 64) :
    ((cfg1.win 0).blk t).view.emb (ix2 p q) = ix2 (nodeOf t.val ht p) q := by
  obtain ⟨e0, e1, -, -, -, -⟩ := index_maps1 t
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * q.val = q.val; rw [e1]; omega

/-- The bias block at every point is the one bias row itself. -/
theorem emb1_bias (t : Fin cfg1.N) (q : Fin 64) :
    ((cfg1.win 1).blk t).view.emb (ix2 (0 : Fin 1) q) = ix2 (0 : Fin 1) q := by
  obtain ⟨-, -, e2, e3, -, -⟩ := index_maps1 t
  funext a; apply Fin.ext
  match a with
  | ⟨0, _⟩ => show win1_1.index t (0 : Fin 2) * 1 + 1 * 0 = 0; rw [e2]
  | ⟨1, _⟩ => show win1_1.index t (1 : Fin 2) * 64 + 1 * q.val = q.val; rw [e3]; omega

/-- What point t writes back is block t of bias-and-rectify of the whole array the region is entered with, `b` being
    the bias the [1, 64] operand holds in its one row. -/
theorem flushed1 (c : Dev nD) (b : (⟨Cert.ReferenceIdeal.S64, .f32⟩ : BufTy).Contents (Elt F))
    (hb : ∀ q : Fin 64, V c main_v44 (ix2 (0 : Fin 1) q) = b (ix1 q)) (t : Fin cfg1.N) :
    (dat1 V c).flushed 2 t = ((cfg1.win 2).blk t).view.read (Elt F)
      (GraphConv.biasRelu (F := F) (V c main_v43) b) := by
  have ht : t.val < 10 := lt_of_lt_of_eq t.isLt N_1
  show (cfg1.win 2).cut (grid1.coords t) ((dat1 V c).after 2 t) = _
  rw [after1_2]
  unfold out1_2
  rw [View.canon_unit_zero no_offset]
  simp only [View.ld_unit_zero (S := S10000x64) no_offset, View.ld_unit_zero (S := S1x64) no_offset]
  funext j
  obtain ⟨p, q, rfl⟩ : ∃ (p : Fin 10000) (q : Fin 64), j = ix2 p q := ⟨j 0, j 1, eq_ix2 j⟩
  show k1_pay1 (iblk1 V c 1 t) (iblk1 V c 0 t) (ix2 p q)
      = GraphConv.biasRelu (F := F) (V c main_v43) b (((cfg1.win 2).blk t).view.emb (ix2 p q))
  rw [emb1_out t ht p q]
  refine (layer1_bias_relu (iblk1 V c 1 t) (iblk1 V c 0 t) p q).trans ?_
  refine ((GraphConv.biasRelu_apply (V c main_v43) b (nodeOf t.val ht p) q).trans ?_).symm
  show FloatOps.maximumf (FloatOps.addf (V c main_v43 (ix2 (nodeOf t.val ht p) q)) (b (ix1 q))) (FloatOps.ofBits .f32 0x00000000#32)
      = FloatOps.maximumf (FloatOps.addf (V c main_v43 (((cfg1.win 0).blk t).view.emb (ix2 p q)))
          (V c main_v44 (((cfg1.win 1).blk t).view.emb (ix2 (0 : Fin 1) q)))) (FloatOps.ofBits .f32 0x00000000#32)
  rw [emb1_rows t ht p q, emb1_bias t q, hb q]

/-- A node row lies in point t's output block exactly when each coordinate lies in the block's range. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Node v's row is written back by point v / 10000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hq : (i 0).val / 10000 < 10 := by omega
  obtain ⟨-, -, -, -, e4, e5⟩ := index_maps1 ⟨(i 0).val / 10000, lt_of_lt_of_eq hq N_1.symm⟩
  refine ⟨⟨(i 0).val / 10000, lt_of_lt_of_eq hq N_1.symm⟩, flush1_2 _, ?_⟩
  rw [mem_blk1]
  intro a
  match a with
  | ⟨0, _⟩ =>
    show win1_2.index ⟨(i 0).val / 10000, _⟩ (0 : Fin 2) * 10000 ≤ (i 0).val ∧ (i 0).val < win1_2.index ⟨(i 0).val / 10000, _⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, _⟩ (1 : Fin 2) * 64 ≤ (i 1).val ∧ (i 1).val < win1_2.index ⟨(i 0).val / 10000, _⟩ (1 : Fin 2) * 64 + 64
    rw [e5]
    omega

/-- The region's output array after its ten write-backs: bias-and-rectify of the array it was entered with. -/
theorem biasRelu1 (c : Dev nD) (b : (⟨Cert.ReferenceIdeal.S64, .f32⟩ : BufTy).Contents (Elt F))
    (hb : ∀ q : Fin 64, V c main_v44 (ix2 (0 : Fin 1) q) = b (ix1 q)) :
    (dat1 V c).arrAt 2 cfg1.N = GraphConv.biasRelu (F := F) (V c main_v43) b :=
  (dat1 V c).arrAt_eq_of_cover 2 _ (fun t _ => flushed1 V c b hb t) cover1

/-! ## The second layer's bias-and-rectify region -/

/-- Over the ten grid points: point t's block of node rows is block t of the array, the bias block is the whole
    bias row, and the output's block sits where the rows' block does. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of point t's output block is entry (10000·t + p, q) of the array. -/
theorem emb3_out (t : Fin cfg3.N) (ht : t.val < 10) (p : Fin 10000) (q : Fin 64) :
    ((cfg3.win 2).blk t).view.emb (ix2 p q) = ix2 (nodeOf t.val ht p) q := by
  obtain ⟨-, -, -, -, e4, e5⟩ := index_maps3 t
  funext a; apply Fin.ext
  match a with
  | ⟨0, _⟩ => show win3_2.index t (0 : Fin 2) * 10000 + 1 * p.val = t.val * 10000 + p.val; rw [e4]; omega
  | ⟨1, _⟩ => show win3_2.index t (1 : Fin 2) * 64 + 1 * q.val = q.val; rw [e5]; omega

/-- Entry (p, q) of point t's block of node rows is entry (10000·t + p, q) of the array. -/
theorem emb3_rows (t : Fin cfg3.N) (ht : t.val < 10) (p : Fin 10000) (q : Fin 64) :
    ((cfg3.win 0).blk t).view.emb (ix2 p q) = ix2 (nodeOf t.val ht p) q := by
  obtain ⟨e0, e1, -, -, -, -⟩ := index_maps3 t
  funext a; apply Fin.ext
  match a with
  | ⟨0, _⟩ => show win3_0.index t (0 : Fin 2) * 10000 + 1 * p.val = t.val * 10000 + p.val; rw [e0]; omega
  | ⟨1, _⟩ => show win3_0.index t (1 : Fin 2) * 64 + 1 * q.val = q.val; rw [e1]; omega

/-- The bias block at every point is the one bias row itself. -/
theorem emb3_bias (t : Fin cfg3.N) (q : Fin 64) :
    ((cfg3.win 1).blk t).view.emb (ix2 (0 : Fin 1) q) = ix2 (0 : Fin 1) q := by
  obtain ⟨-, -, e2, e3, -, -⟩ := index_maps3 t
  funext a; apply Fin.ext
  match a with
  | ⟨0, _⟩ => show win3_1.index t (0 : Fin 2) * 1 + 1 * 0 = 0; rw [e2]
  | ⟨1, _⟩ => show win3_1.index t (1 : Fin 2) * 64 + 1 * q.val = q.val; rw [e3]; omega

/-- What point t writes back is block t of bias-and-rectify of the whole array the region is entered with, `b` being
    the bias the [1, 64] operand holds in its one row. -/
theorem flushed3 (c : Dev nD) (b : (⟨Cert.ReferenceIdeal.S64, .f32⟩ : BufTy).Contents (Elt F))
    (hb : ∀ q : Fin 64, V c main_v60 (ix2 (0 : Fin 1) q) = b (ix1 q)) (t : Fin cfg3.N) :
    (dat3 V c).flushed 2 t = ((cfg3.win 2).blk t).view.read (Elt F)
      (GraphConv.biasRelu (F := F) (V c main_v59) b) := by
  have ht : t.val < 10 := lt_of_lt_of_eq t.isLt N_3
  show (cfg3.win 2).cut (grid3.coords t) ((dat3 V c).after 2 t) = _
  rw [after3_2]
  unfold out3_2
  rw [View.canon_unit_zero no_offset]
  simp only [View.ld_unit_zero (S := S10000x64) no_offset, View.ld_unit_zero (S := S1x64) no_offset]
  funext j
  obtain ⟨p, q, rfl⟩ : ∃ (p : Fin 10000) (q : Fin 64), j = ix2 p q := ⟨j 0, j 1, eq_ix2 j⟩
  show k3_pay1 (iblk3 V c 1 t) (iblk3 V c 0 t) (ix2 p q)
      = GraphConv.biasRelu (F := F) (V c main_v59) b (((cfg3.win 2).blk t).view.emb (ix2 p q))
  rw [emb3_out t ht p q]
  refine (layer2_bias_relu (iblk3 V c 1 t) (iblk3 V c 0 t) p q).trans ?_
  refine ((GraphConv.biasRelu_apply (V c main_v59) b (nodeOf t.val ht p) q).trans ?_).symm
  show FloatOps.maximumf (FloatOps.addf (V c main_v59 (ix2 (nodeOf t.val ht p) q)) (b (ix1 q))) (FloatOps.ofBits .f32 0x00000000#32)
      = FloatOps.maximumf (FloatOps.addf (V c main_v59 (((cfg3.win 0).blk t).view.emb (ix2 p q)))
          (V c main_v60 (((cfg3.win 1).blk t).view.emb (ix2 (0 : Fin 1) q)))) (FloatOps.ofBits .f32 0x00000000#32)
  rw [emb3_rows t ht p q, emb3_bias t q, hb q]

/-- A node row lies in point t's output block exactly when each coordinate lies in the block's range. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Node v's row is written back by point v / 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hq : (i 0).val / 10000 < 10 := by omega
  obtain ⟨-, -, -, -, e4, e5⟩ := index_maps3 ⟨(i 0).val / 10000, lt_of_lt_of_eq hq N_3.symm⟩
  refine ⟨⟨(i 0).val / 10000, lt_of_lt_of_eq hq N_3.symm⟩, flush3_2 _, ?_⟩
  rw [mem_blk3]
  intro a
  match a with
  | ⟨0, _⟩ =>
    show win3_2.index ⟨(i 0).val / 10000, _⟩ (0 : Fin 2) * 10000 ≤ (i 0).val ∧ (i 0).val < win3_2.index ⟨(i 0).val / 10000, _⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, _⟩ (1 : Fin 2) * 64 ≤ (i 1).val ∧ (i 1).val < win3_2.index ⟨(i 0).val / 10000, _⟩ (1 : Fin 2) * 64 + 64
    rw [e5]
    omega

/-- The region's output array after its ten write-backs: bias-and-rectify of the array it was entered with. -/
theorem biasRelu3 (c : Dev nD) (b : (⟨Cert.ReferenceIdeal.S64, .f32⟩ : BufTy).Contents (Elt F))
    (hb : ∀ q : Fin 64, V c main_v60 (ix2 (0 : Fin 1) q) = b (ix1 q)) :
    (dat3 V c).arrAt 2 cfg3.N = GraphConv.biasRelu (F := F) (V c main_v59) b :=
  (dat3 V c).arrAt_eq_of_cover 2 _ (fun t _ => flushed3 V c b hb t) cover3

end Cert.KernelIdeal.RegionValue

end
-- ==== Proof.Boundaries.lean ====
/-
  What the idealized kernel program's buffers hold at each segment boundary, over the extended reals, as the
  network's pieces of the six arguments — ending at the result array: it holds the two-layer network.

  Before the first region the host has computed, from the edge list alone, the sources and targets (with the self
  loops) and every edge's weight. The first product region leaves x·W₁; the host then gathers its rows along the
  edges, scales them and sums them at the targets, and lays the first bias out as one row; the first bias-and-rectify
  region leaves the hidden features; the second product region leaves hidden·W₂; the host aggregates again with the
  SAME sources, targets and weights (computed once: no later segment writes them) and lays out the second bias; the
  last region leaves the network's output. Every step is either a host stretch read off its operations or a region
  read as one whole-array function; nothing here opens a gather or a scatter-addition.
-/
import proofs.«118640_j87737591923115_1_alg».proof.Proof.Gen.KernelIdeal.Frame
import proofs.«118640_j87737591923115_1_alg».proof.Proof.GraphConv
import proofs.«118640_j87737591923115_1_alg».proof.Proof.ProductRegions
import proofs.«118640_j87737591923115_1_alg».proof.Proof.BiasReluRegions
import Idealize.ShloMosaic.Lib.StableHlo.Run
import Idealize.ShloMosaic.Lib.ValueLayout

set_option maxRecDepth 16384

noncomputable section

namespace Cert.KernelIdeal.Boundary

open Idealize.ShloMosaic Idealize.ShloMosaic.TcCoe Idealize.ShloMosaic.StableHlo Idealize.ShloMosaic.ValueIdx Idealize.SL.Sem
open Cert.KernelIdeal Cert.KernelIdeal.Gen Cert.KernelIdeal.RegionValue

section AnyFloats

variable {F : FTy → Type} [FloatOps F]
variable (m : (ℓ : Loc nD τ sig) → Buf (Elt F) ℓ) (ρ : Dev nD → PrngReg) (c : Dev nD)

/-- The six arguments as launched on core `c`. -/
abbrev feats := m ((c : Thread nD τ).loc main_arg0)
abbrev edges := m ((c : Thread nD τ).loc main_arg1)
abbrev weight1 := m ((c : Thread nD τ).loc main_arg2)
abbrev bias1 := m ((c : Thread nD τ).loc main_arg3)
abbrev weight2 := m ((c : Thread nD τ).loc main_arg4)
abbrev bias2 := m ((c : Thread nD τ).loc main_arg5)

/-! ## Entering the first product region: what the host computed from the edge list, and the untouched arguments -/

set_option maxHeartbeats 1000000 in
theorem sources3 : W3 m ρ c (Proc.devRef .tc main_v5) = GraphConv.sources (F := F) (edges m c) := by
  show StableHlo.after hostOps0_2 (StableHlo.after hostOps0_1 (StableHlo.after hostOps0 (W0 m ρ c))) (Proc.devRef .tc main_v5) = _
  after_results_simp
  rfl

set_option maxHeartbeats 1000000 in
theorem targets3 : W3 m ρ c (Proc.devRef .tc main_v6) = GraphConv.targets (F := F) (edges m c) := by
  show StableHlo.after hostOps0_2 (StableHlo.after hostOps0_1 (StableHlo.after hostOps0 (W0 m ρ c))) (Proc.devRef .tc main_v6) = _
  after_results_simp
  rfl

set_option maxHeartbeats 2000000 in
theorem edgeWeight3 : W3 m ρ c (Proc.devRef .tc main_v29) = GraphConv.edgeWeight (F := F) (edges m c) := by
  show StableHlo.after hostOps0_2 (StableHlo.after hostOps0_1 (StableHlo.after hostOps0 (W0 m ρ c))) (Proc.devRef .tc main_v29) = _
  after_results_simp
  rfl

set_option maxHeartbeats 1000000 in
theorem feats3 : W3 m ρ c (Proc.devRef .tc main_arg0) = feats m c := by
  show StableHlo.after hostOps0_2 (StableHlo.after hostOps0_1 (StableHlo.after hostOps0 (W0 m ρ c))) (Proc.devRef .tc main_arg0) = _
  after_results_simp

set_option maxHeartbeats 1000000 in
theorem weight1_3 : W3 m ρ c (Proc.devRef .tc main_arg2) = weight1 m c := by
  show StableHlo.after hostOps0_2 (StableHlo.after hostOps0_1 (StableHlo.after hostOps0 (W0 m ρ c))) (Proc.devRef .tc main_arg2) = _
  after_results_simp

set_option maxHeartbeats 1000000 in
theorem bias1_3 : W3 m ρ c (Proc.devRef .tc main_arg3) = bias1 m c := by
  show StableHlo.after hostOps0_2 (StableHlo.after hostOps0_1 (StableHlo.after hostOps0 (W0 m ρ c))) (Proc.devRef .tc main_arg3) = _
  after_results_simp

set_option maxHeartbeats 1000000 in
theorem weight2_3 : W3 m ρ c (Proc.devRef .tc main_arg4) = weight2 m c := by
  show StableHlo.after hostOps0_2 (StableHlo.after hostOps0_1 (StableHlo.after hostOps0 (W0 m ρ c))) (Proc.devRef .tc main_arg4) = _
  after_results_simp

set_option maxHeartbeats 1000000 in
theorem bias2_3 : W3 m ρ c (Proc.devRef .tc main_arg5) = bias2 m c := by
  show StableHlo.after hostOps0_2 (StableHlo.after hostOps0_1 (StableHlo.after hostOps0 (W0 m ρ c))) (Proc.devRef .tc main_arg5) = _
  after_results_simp

end AnyFloats

variable (m : (ℓ : Loc nD τ sig) → Buf (Elt Ideal) ℓ) (ρ : Dev nD → PrngReg) (c : Dev nD)

/-! ## Leaving the first product region: its output is x·W₁, everything else as entered -/

theorem transform4 : W4 m ρ c (Proc.devRef .tc main_v30) = GraphConv.transform (F := Ideal) (feats m c) (weight1 m c) := by
  refine ((W4_arr m ρ c 2).trans (product0 (V3 m ρ) c)).trans ?_
  show GraphConv.transform (F := Ideal) (W3 m ρ c (Proc.devRef .tc main_arg0)) (W3 m ρ c (Proc.devRef .tc main_arg2)) = _
  rw [feats3 m ρ c, weight1_3 m ρ c]

theorem sources4 : W4 m ρ c (Proc.devRef .tc main_v5) = GraphConv.sources (F := Ideal) (edges m c) :=
  (W4_of_ne m ρ c main_v5 (by decide)).trans (sources3 m ρ c)
theorem targets4 : W4 m ρ c (Proc.devRef .tc main_v6) = GraphConv.targets (F := Ideal) (edges m c) :=
  (W4_of_ne m ρ c main_v6 (by decide)).trans (targets3 m ρ c)
theorem edgeWeight4 : W4 m ρ c (Proc.devRef .tc main_v29) = GraphConv.edgeWeight (F := Ideal) (edges m c) :=
  (W4_of_ne m ρ c main_v29 (by decide)).trans (edgeWeight3 m ρ c)
theorem bias1_4 : W4 m ρ c (Proc.devRef .tc main_arg3) = bias1 m c :=
  (W4_of_ne m ρ c main_arg3 (by decide)).trans (bias1_3 m ρ c)
theorem weight2_4 : W4 m ρ c (Proc.devRef .tc main_arg4) = weight2 m c :=
  (W4_of_ne m ρ c main_arg4 (by decide)).trans (weight2_3 m ρ c)
theorem bias2_4 : W4 m ρ c (Proc.devRef .tc main_arg5) = bias2 m c :=
  (W4_of_ne m ρ c main_arg5 (by decide)).trans (bias2_3 m ρ c)

/-! ## Entering the first bias-and-rectify region: the aggregated transform and the bias as one row -/

set_option maxHeartbeats 1000000 in
theorem aggregate5 : W5 m ρ c (Proc.devRef .tc main_v43)
    = GraphConv.aggregate (F := Ideal) (GraphConv.transform (F := Ideal) (feats m c) (weight1 m c)) (edges m c)
        (GraphConv.edgeWeight (F := Ideal) (edges m c)) := by
  show StableHlo.after hostOps1 (W4 m ρ c) (Proc.devRef .tc main_v43) = _
  after_results_simp
  rw [transform4 m ρ c, sources4 m ρ c, targets4 m ρ c, edgeWeight4 m ρ c]
  rfl

set_option maxHeartbeats 1000000 in
theorem biasRow5 (q : Fin 64) : V5 m ρ c main_v44 (ix2 (0 : Fin 1) q) = bias1 m c (ix1 q) := by
  have h : W5 m ρ c (Proc.devRef .tc main_v44) = shapeCast S1x64 (bias1 m c) shapeCasts_S64_S1x64 := by
    show StableHlo.after hostOps1 (W4 m ρ c) (Proc.devRef .tc main_v44) = _
    after_results_simp
    rw [bias1_4 m ρ c]
    rfl
  show W5 m ρ c (Proc.devRef .tc main_v44) (ix2 (0 : Fin 1) q) = _
  rw [h]
  exact shapeCast_a_1a_apply (bias1 m c) shapeCasts_S64_S1x64 0 q

set_option maxHeartbeats 1000000 in
theorem sources5 : W5 m ρ c (Proc.devRef .tc main_v5) = GraphConv.sources (F := Ideal) (edges m c) := by
  show StableHlo.after hostOps1 (W4 m ρ c) (Proc.devRef .tc main_v5) = _
  after_results_simp
  exact sources4 m ρ c
set_option maxHeartbeats 1000000 in
theorem targets5 : W5 m ρ c (Proc.devRef .tc main_v6) = GraphConv.targets (F := Ideal) (edges m c) := by
  show StableHlo.after hostOps1 (W4 m ρ c) (Proc.devRef .tc main_v6) = _
  after_results_simp
  exact targets4 m ρ c
set_option maxHeartbeats 1000000 in
theorem edgeWeight5 : W5 m ρ c (Proc.devRef .tc main_v29) = GraphConv.edgeWeight (F := Ideal) (edges m c) := by
  show StableHlo.after hostOps1 (W4 m ρ c) (Proc.devRef .tc main_v29) = _
  after_results_simp
  exact edgeWeight4 m ρ c
set_option maxHeartbeats 1000000 in
theorem weight2_5 : W5 m ρ c (Proc.devRef .tc main_arg4) = weight2 m c := by
  show StableHlo.after hostOps1 (W4 m ρ c) (Proc.devRef .tc main_arg4) = _
  after_results_simp
  exact weight2_4 m ρ c
set_option maxHeartbeats 1000000 in
theorem bias2_5 : W5 m ρ c (Proc.devRef .tc main_arg5) = bias2 m c := by
  show StableHlo.after hostOps1 (W4 m ρ c) (Proc.devRef .tc main_arg5) = _
  after_results_simp
  exact bias2_4 m ρ c

/-! ## Leaving the first bias-and-rectify region: the hidden features -/

theorem hidden6 : W6 m ρ c (Proc.devRef .tc main_v45)
    = GraphConv.layer (F := Ideal) (feats m c) (edges m c) (weight1 m c) (bias1 m c) := by
  refine ((W6_arr m ρ c 2).trans (biasRelu1 (V5 m ρ) c (bias1 m c) (biasRow5 m ρ c))).trans ?_
  show GraphConv.biasRelu (F := Ideal) (W5 m ρ c (Proc.devRef .tc main_v43)) (bias1 m c) = _
  rw [aggregate5 m ρ c]
  rfl

theorem sources6 : W6 m ρ c (Proc.devRef .tc main_v5) = GraphConv.sources (F := Ideal) (edges m c) :=
  (W6_of_ne m ρ c main_v5 (by decide)).trans (sources5 m ρ c)
theorem targets6 : W6 m ρ c (Proc.devRef .tc main_v6) = GraphConv.targets (F := Ideal) (edges m c) :=
  (W6_of_ne m ρ c main_v6 (by decide)).trans (targets5 m ρ c)
theorem edgeWeight6 : W6 m ρ c (Proc.devRef .tc main_v29) = GraphConv.edgeWeight (F := Ideal) (edges m c) :=
  (W6_of_ne m ρ c main_v29 (by decide)).trans (edgeWeight5 m ρ c)
theorem weight2_6 : W6 m ρ c (Proc.devRef .tc main_arg4) = weight2 m c :=
  (W6_of_ne m ρ c main_arg4 (by decide)).trans (weight2_5 m ρ c)
theorem bias2_6 : W6 m ρ c (Proc.devRef .tc main_arg5) = bias2 m c :=
  (W6_of_ne m ρ c main_arg5 (by decide)).trans (bias2_5 m ρ c)

/-! ## Leaving the second product region: hidden·W₂ -/

theorem transform7 : W7 m ρ c (Proc.devRef .tc main_v46)
    = GraphConv.transform (F := Ideal) (GraphConv.layer (F := Ideal) (feats m c) (edges m c) (weight1 m c) (bias1 m c)) (weight2 m c) := by
  refine ((W7_arr m ρ c 2).trans (product2 (V6 m ρ) c)).trans ?_
  show GraphConv.transform (F := Ideal) (W6 m ρ c (Proc.devRef .tc main_v45)) (W6 m ρ c (Proc.devRef .tc main_arg4)) = _
  rw [hidden6 m ρ c, weight2_6 m ρ c]

theorem sources7 : W7 m ρ c (Proc.devRef .tc main_v5) = GraphConv.sources (F := Ideal) (edges m c) :=
  (W7_of_ne m ρ c main_v5 (by decide)).trans (sources6 m ρ c)
theorem targets7 : W7 m ρ c (Proc.devRef .tc main_v6) = GraphConv.targets (F := Ideal) (edges m c) :=
  (W7_of_ne m ρ c main_v6 (by decide)).trans (targets6 m ρ c)
theorem edgeWeight7 : W7 m ρ c (Proc.devRef .tc main_v29) = GraphConv.edgeWeight (F := Ideal) (edges m c) :=
  (W7_of_ne m ρ c main_v29 (by decide)).trans (edgeWeight6 m ρ c)
theorem bias2_7 : W7 m ρ c (Proc.devRef .tc main_arg5) = bias2 m c :=
  (W7_of_ne m ρ c main_arg5 (by decide)).trans (bias2_6 m ρ c)

/-! ## Entering the second bias-and-rectify region -/

set_option maxHeartbeats 1000000 in
theorem aggregate8 : W8 m ρ c (Proc.devRef .tc main_v59)
    = GraphConv.aggregate (F := Ideal)
        (GraphConv.transform (F := Ideal) (GraphConv.layer (F := Ideal) (feats m c) (edges m c) (weight1 m c) (bias1 m c)) (weight2 m c))
        (edges m c) (GraphConv.edgeWeight (F := Ideal) (edges m c)) := by
  show StableHlo.after hostOps3 (W7 m ρ c) (Proc.devRef .tc main_v59) = _
  after_results_simp
  rw [transform7 m ρ c, sources7 m ρ c, targets7 m ρ c, edgeWeight7 m ρ c]
  rfl

set_option maxHeartbeats 1000000 in
theorem biasRow8 (q : Fin 64) : V8 m ρ c main_v60 (ix2 (0 : Fin 1) q) = bias2 m c (ix1 q) := by
  have h : W8 m ρ c (Proc.devRef .tc main_v60) = shapeCast S1x64 (bias2 m c) shapeCasts_S64_S1x64 := by
    show StableHlo.after hostOps3 (W7 m ρ c) (Proc.devRef .tc main_v60) = _
    after_results_simp
    rw [bias2_7 m ρ c]
    rfl
  show W8 m ρ c (Proc.devRef .tc main_v60) (ix2 (0 : Fin 1) q) = _
  rw [h]
  exact shapeCast_a_1a_apply (bias2 m c) shapeCasts_S64_S1x64 0 q

/-! ## The result array after the run -/

/-- The result array ends holding the two-layer network of the six arguments. -/
theorem result9 : W9 m ρ c (Proc.devRef .tc main_v61)
    = GraphConv.network (F := Ideal) (feats m c) (edges m c) (weight1 m c) (bias1 m c) (weight2 m c) (bias2 m c) := by
  refine ((W9_arr m ρ c 2).trans (biasRelu3 (V8 m ρ) c (bias2 m c) (biasRow8 m ρ c))).trans ?_
  show GraphConv.biasRelu (F := Ideal) (W8 m ρ c (Proc.devRef .tc main_v59)) (bias2 m c) = _
  rw [aggregate8 m ρ c]
  rfl

end Cert.KernelIdeal.Boundary

end
-- ==== Proof.ReferenceValue.lean ====
/-
  The reference program's result, named: the composed term its run ends with is the two-layer network of the six
  arguments. The reference spells the network out operation by operation — it even computes the edge weights twice,
  once per layer, by the same operations of the same edge list — and every one of those operations is the one the
  network's definition names in its place, so the two terms are one term.
-/
import proofs.«118640_j87737591923115_1_alg».proof.Proof.ReferenceRun
import proofs.«118640_j87737591923115_1_alg».proof.Proof.GraphConv

noncomputable section

namespace Cert.ReferenceIdeal.RefValue

open Idealize.ShloMosaic Idealize.ShloMosaic.TcCoe Idealize.SL.Sem Cert.ReferenceIdeal Cert.ReferenceIdeal.Gen

variable {F : FTy → Type} [FloatOps F]

set_option maxRecDepth 8192 in
/-- The reference's result term is the network of the arguments as launched. -/
theorem result_is_network (m : (ℓ : Loc nD τ sig) → Buf (Elt F) ℓ) (c : Dev nD) :
    Cert.ReferenceIdeal.ValueP.res_main_v95 m c
      = GraphConv.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v95
  rfl

end Cert.ReferenceIdeal.RefValue

end
-- ==== Proof.lean ====
/-
  A two-layer graph convolution over 100000 nodes with 64 features and 3200000 edges, against its plain reference.

  Both programs compute, over the extended reals, the same function of the six arguments (Proof/GraphConv.lean):
  per layer, the node features times a 64×64 weight matrix, gathered along the edges (with a self loop per node),
  scaled by the edge's weight d(source)·d(target) with d = 1/sqrt(degree), summed at the targets, plus a bias row,
  rectified. The kernel program does the two dense steps of each layer — the product and the bias-and-rectify — in
  pipelined regions over blocks of 10000 node rows, and everything that follows the edges on the host with the very
  operations the reference uses; it computes the edge weights once where the reference computes them per layer.

  * Each region is one whole-array function of what it is entered with (Proof/ProductRegions.lean,
    Proof/BiasReluRegions.lean): a block of the product is the product of the block, since a row of x·W depends on
    that row of x alone; rounding the factors to a shorter format is the identity over the extended reals, and a
    product accumulated from zero is the plain sum over the 64 features, as the host's is.
  * The contents of the buffers at each boundary between host stretches and regions then compose to the network
    (Proof/Boundaries.lean), and the program's run ends with the result array at the last boundary's contents
    (Proof/KernelRun.lean).
  * The reference's run ends with its result at the same network of its own arguments (Proof/ReferenceValue.lean).

  No law of arithmetic joins the two sides beyond the commutative sum inside a product entry, so the precondition
  (every float input finite) is never opened. The idealization rewrote nothing, so `preserves` has nothing to state.
-/
import proofs.«118640_j87737591923115_1_alg».proof.Defs
import proofs.«118640_j87737591923115_1_alg».proof.Proof.Gen.Kernel
import proofs.«118640_j87737591923115_1_alg».proof.Proof.Gen.Kernel.Skeleton
import proofs.«118640_j87737591923115_1_alg».proof.Proof.Gen.Kernel.Launch
import proofs.«118640_j87737591923115_1_alg».proof.Proof.Gen.Kernel.Points
import proofs.«118640_j87737591923115_1_alg».proof.Proof.Gen.Kernel.Frame
import proofs.«118640_j87737591923115_1_alg».proof.Proof.Gen.KernelIdeal
import proofs.«118640_j87737591923115_1_alg».proof.Proof.Gen.KernelIdeal.Skeleton
import proofs.«118640_j87737591923115_1_alg».proof.Proof.Gen.KernelIdeal.Launch
import proofs.«118640_j87737591923115_1_alg».proof.Proof.Gen.KernelIdeal.Points
import proofs.«118640_j87737591923115_1_alg».proof.Proof.Gen.KernelIdeal.Frame
import proofs.«118640_j87737591923115_1_alg».proof.Proof.Gen.ReferenceIdeal
import proofs.«118640_j87737591923115_1_alg».proof.Proof.ReferenceRun
import proofs.«118640_j87737591923115_1_alg».proof.Proof.Gen.Pre_finite_inputs
import proofs.«118640_j87737591923115_1_alg».proof.Proof.GraphConv
import proofs.«118640_j87737591923115_1_alg».proof.Proof.KernelRun
import proofs.«118640_j87737591923115_1_alg».proof.Proof.Boundaries
import proofs.«118640_j87737591923115_1_alg».proof.Proof.ReferenceValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the network of those arguments in their
    result arrays, and with the arguments unchanged. -/
theorem algebraic : Cert.algebraic_KernelIdeal_ReferenceIdeal := by
  intro m ρ m' ρ' _ hagree
  refine ⟨fun c => GraphConv.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundary.result9 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    have e := Cert.ReferenceIdeal.RefValue.result_is_network (F := Ideal) m' c
    rw [(hagree c).1, (hagree c).2.1, (hagree c).2.2.1, (hagree c).2.2.2.1, (hagree c).2.2.2.2.1, (hagree c).2.2.2.2.2] at e
    exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
